-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S32768 : Shape := ⟨1, ![32768]⟩
abbrev S256x128 : Shape := ⟨2, ![256, 128]⟩
abbrev S256 : Shape := ⟨1, ![256]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S32768 : S_.BroadcastsInDim S32768 (![] : Fin 0 → Fin S32768.rank)
  reducesTo_S32768_S_d0 : S32768.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S8192x128 .f32) (main_arg1 : FVec F S32768 .f32) (main_arg2 : FVec F S256x128 .f32) (main_arg3 : FVec F S256 .f32) (main_arg4 : FVec F S256 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S32768 .f32 := Host.absf main_arg1
  let main_cst_0 : FVec F S_ .f32 := constant S_ .f32 0x7F800000#32
  let main_v5 : FVec F S32768 .f32 := broadcastInDim S32768 ![] bcast_S_S32768 main_cst_0
  let main_v6 : IVec S32768 1 := cmpf .olt main_v4 main_v5
  let main_c_1 : IVec S_ 1 := constantI S_ 1 1#1
  let main_v7 : IVec S_ 1 := (fun x v => Host.reduce IntOp.andi x v reducesTo_S32768_S_d0 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S8192x128 : Shape := ⟨2, ![8192, 128]⟩
abbrev S32768 : Shape := ⟨1, ![32768]⟩
abbrev S256x128 : Shape := ⟨2, ![256, 128]⟩
abbrev S256 : Shape := ⟨1, ![256]⟩
abbrev S_ : Shape := ⟨0, ![]⟩
abbrev S128x256 : Shape := ⟨2, ![128, 256]⟩
abbrev S1x256 : Shape := ⟨2, ![1, 256]⟩
abbrev S8192x256 : Shape := ⟨2, ![8192, 256]⟩
abbrev S1024x128 : Shape := ⟨2, ![1024, 128]⟩
abbrev S1024x256 : Shape := ⟨2, ![1024, 256]⟩

abbrev nBuf : Space → Nat
  | .hbm => 23
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S32768, .f32⟩
  | .hbm, ⟨2, _⟩ => ⟨S256x128, .f32⟩
  | .hbm, ⟨3, _⟩ => ⟨S256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S_, .f32⟩
  | .hbm, ⟨8, _⟩ => ⟨S256x128, .f32⟩
  | .hbm, ⟨9, _⟩ => ⟨S256x128, .f32⟩
  | .hbm, ⟨10, _⟩ => ⟨S256x128, .f32⟩
  | .hbm, ⟨11, _⟩ => ⟨S256x128, .f32⟩
  | .hbm, ⟨12, _⟩ => ⟨S256x128, .f32⟩
  | .hbm, ⟨13, _⟩ => ⟨S_, .f32⟩
  | .hbm, ⟨14, _⟩ => ⟨S256, .f32⟩
  | .hbm, ⟨15, _⟩ => ⟨S128x256, .f32⟩
  | .hbm, ⟨16, _⟩ => ⟨S128x256, .bf16⟩
  | .hbm, ⟨17, _⟩ => ⟨S128x256, .f32⟩
  | .hbm, ⟨18, _⟩ => ⟨S128x256, .bf16⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S8192x256, .f32⟩
  | .local _ .vmem, ⟨0, _⟩ => ⟨S1024x128, .f32⟩
  | .local _ .vmem, ⟨1, _⟩ => ⟨S1024x128, .f32⟩
  | .local _ .vmem, ⟨2, _⟩ => ⟨S128x256, .bf16⟩
  | .local _ .vmem, ⟨3, _⟩ => ⟨S128x256, .bf16⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1024x256, .f32⟩
  | .local _ .vmem, ⟨8, _⟩ => ⟨S1024x256, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32768_S256x128 : S32768.ShapeCasts S256x128
  bcast_S_S256x128 : S_.BroadcastsInDim S256x128 (![] : Fin 0 → Fin S256x128.rank)
  reducesTo_S256x128_S256_d1 : S256x128.ReducesTo [1] S256
  h_S_ : 0 < S_.numel
  transposes_S256x128_S128x256_1_0 : S256x128.Transposes [1, 0] S128x256
  bitsLt_bf16_f32 : FTy.bits .bf16 < FTy.bits .f32
  shapeCasts_S256_S1x256 : S256.ShapeCasts S1x256
  inb_S1024x128_S1024x128_0_0 : ∀ a, (![0, 0] : Fin 2 → Nat) a + S1024x128.size a ≤ S1024x128.size a
  h_S1024x128 : 0 < S1024x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x128_S128x256_S1024x256_1_0_0_1_n_n_wf : DotDims.WF S1024x128 S128x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S8192x256.size a
  hwx0_6 : ∀ i : grid0.Coords, EltTy.bits .f32 = 32 ∨ (Rect.block (s := S8192x256) S1024x256.size (cc0_transform_6 i) (hinb0_6 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x128 : Shape := ⟨2, ![8192, 128]⟩
abbrev S32768 : Shape := ⟨1, ![32768]⟩
abbrev S256x128 : Shape := ⟨2, ![256, 128]⟩
abbrev S256 : Shape := ⟨1, ![256]⟩
abbrev S_ : Shape := ⟨0, ![]⟩
abbrev S8192x256 : Shape := ⟨2, ![8192, 256]⟩
abbrev S1x256 : Shape := ⟨2, ![1, 256]⟩

abbrev nBuf : Space → Nat
  | .hbm => 42
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S32768, .f32⟩
  | .hbm, ⟨2, _⟩ => ⟨S256x128, .f32⟩
  | .hbm, ⟨3, _⟩ => ⟨S256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S_, .f32⟩
  | .hbm, ⟨8, _⟩ => ⟨S256x128, .f32⟩
  | .hbm, ⟨9, _⟩ => ⟨S256x128, .f32⟩
  | .hbm, ⟨10, _⟩ => ⟨S8192x128, .f32⟩
  | .hbm, ⟨11, _⟩ => ⟨S8192x256, .f32⟩
  | .hbm, ⟨12, _⟩ => ⟨S256x128, .f32⟩
  | .hbm, ⟨13, _⟩ => ⟨S8192x256, .f32⟩
  | .hbm, ⟨14, _⟩ => ⟨S_, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S256x128, .f32⟩
  | .hbm, ⟨19, _⟩ => ⟨S256x128, .f32⟩
  | .hbm, ⟨20, _⟩ => ⟨S_, .f32⟩
  | .hbm, ⟨21, _⟩ => ⟨S256, .f32⟩
  | .hbm, ⟨22, _⟩ => ⟨S1x256, .f32⟩
  | .hbm, ⟨23, _⟩ => ⟨S8192x256, .f32⟩
  | .hbm, ⟨24, _⟩ => ⟨S8192x256, .f32⟩
  | .hbm, ⟨25, _⟩ => ⟨S_, .f32⟩
  | .hbm, ⟨26, _⟩ => ⟨S8192x256, .f32⟩
  | .hbm, ⟨27, _⟩ => ⟨S8192x256, .f32⟩
  | .hbm, ⟨28, _⟩ => ⟨S1x256, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S8192x256, .f32⟩
  | .hbm, ⟨33, _⟩ => ⟨S_, .f32⟩
  | .hbm, ⟨34, _⟩ => ⟨S8192x256, .f32⟩
  | .hbm, ⟨35, _⟩ => ⟨S8192x256, .f32⟩
  | .hbm, ⟨36, _⟩ => ⟨S_, .f32⟩
  | .hbm, ⟨37, _⟩ => ⟨S8192x256, .f32⟩
  | .hbm, ⟨38, _⟩ => ⟨S8192x256, .f32⟩
  | .hbm, ⟨39, _⟩ => ⟨S1x256, .f32⟩
  | .hbm, ⟨40, _⟩ => ⟨S8192x256, .f32⟩
  | .hbm, ⟨41, _⟩ => ⟨S8192x256, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  shapeCasts_S32768_S256x128 : S32768.ShapeCasts S256x128
  bcast_S_S256x128 : S_.BroadcastsInDim S256x128 (![] : Fin 0 → Fin S256x128.rank)
  bcast_S_S8192x256 : S_.BroadcastsInDim S8192x256 (![] : Fin 0 → Fin S8192x256.rank)
  reducesTo_S256x128_S256_d1 : S256x128.ReducesTo [1] S256
  h_S_ : 0 < S_.numel
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  dot_S8192x128_S256x128_S8192x256_1_1_0_0_n_n_wf : DotDims.WF S8192x128 S256x128 S8192x256 [1] [1] [0] [0] [] []

variable [Facts₀]

def dot_S8192x128_S256x128_S8192x256_1_1_0_0_n_n : DotDims S8192x128 S256x128 S8192x256 where
  lhsContracting := [1]
  rhsContracting := [1]
  lhsNonContracting := [0]
  rhsNonContracting := [0]
  lhsBatch := []
  rhsBatch := []
  wf := dot_S8192x128_S256x128_S8192x256_1_1_0_0_n_n_wf

class Facts : Prop extends Facts₀ where

variable [Facts]
-- ==== Proof.EllipsoidGate.lean ====
/-
  The function both programs compute, index by index, on the extended reals.

  For a batch row `b` and a unit `u` the layer's output is

      μ u · logistic ((1 − Q b u) · σ u),    Q b u = Σ_k x(b,k)² · w(u,k) + 2 · Σ_k x(b,k) · c(u,k) + β u,

  where `w` is the array of inverse squared semi-axes, `c` the shifts scaled by it, and `β u` the constant term
  `Σ_k shift(u,k)² · w(u,k)` of the expanded square `Σ_k (x(b,k) + shift(u,k))² · w(u,k)`. The three small arrays
  `w`, `c`, `β` are parameters here: both programs prepare them from the inputs by the same operations, so the
  comparison never opens them. The two constants `1` and `2` are kept as the float words the programs print; only the
  logistic function's own `1` needs its word read (`one_word`).
-/
import Idealize.ShloMosaic.PureOps.Ideal
import Idealize.ShloMosaic.PureOps.IdealRules
import Idealize.ShloMosaic.Lib.ValueIdx

noncomputable section

open scoped BigOperators

namespace Cert.EllipsoidGate

open Idealize.ShloMosaic Idealize.ShloMosaic.ValueIdx

/-- The expanded quadratic form at batch row `b` and unit `u`: the squares against `w`, twice the cross term against
    `c`, and the constant term `β`. -/
def quad (x : (⟨2, ![8192, 128]⟩ : Shape).Idx → EReal) (w c : (⟨2, ![256, 128]⟩ : Shape).Idx → EReal)
    (β : (⟨1, ![256]⟩ : Shape).Idx → EReal) (b : Fin 8192) (u : Fin 256) : EReal :=
  (∑ k : Fin 128, x (ix2 b k) * x (ix2 b k) * w (ix2 u k))
    + Ideal.ofBits .f32 0x40000000#32 * (∑ k : Fin 128, x (ix2 b k) * c (ix2 u k)) + β (ix1 u)

/-- The layer's output: the logistic function of `(1 − Q) · σ`, times the sign `μ`, at every (row, unit). -/
def gate (x : (⟨2, ![8192, 128]⟩ : Shape).Idx → EReal) (w c : (⟨2, ![256, 128]⟩ : Shape).Idx → EReal)
    (β σ μ : (⟨1, ![256]⟩ : Shape).Idx → EReal) : (⟨2, ![8192, 256]⟩ : Shape).Idx → EReal := fun i =>
  Ideal.logistic ((Ideal.ofBits .f32 0x3F800000#32 - quad x w c β (i 0) (i 1)) * σ (ix1 (i 1))) * μ (ix1 (i 1))

/-- The output at an index given by its coordinates. -/
theorem gate_apply (x : (⟨2, ![8192, 128]⟩ : Shape).Idx → EReal) (w c : (⟨2, ![256, 128]⟩ : Shape).Idx → EReal)
    (β σ μ : (⟨1, ![256]⟩ : Shape).Idx → EReal) (b : Fin 8192) (u : Fin 256) :
    gate x w c β σ μ (ix2 b u)
      = Ideal.logistic ((Ideal.ofBits .f32 0x3F800000#32 - quad x w c β b u) * σ (ix1 u)) * μ (ix1 u) := rfl

/-- The float word of `1.0` denotes the extended real `1`. -/
theorem one_word : Ideal.ofBits .f32 0x3F800000#32 = 1 := IdealRules.sign_bit.ideal_onePat .f32

/-- The logistic function written out as the quotient `1 / (1 + e^(−z))` with the float word of `1.0` for both ones
    is the logistic function. -/
theorem logistic_spelled (z : EReal) :
    Ideal.div (Ideal.ofBits .f32 0x3F800000#32) (Ideal.ofBits .f32 0x3F800000#32 + Ideal.exp (-z)) = Ideal.logistic z := by
  rw [one_word]; rfl

end Cert.EllipsoidGate

end
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.BlockBody.lean ====
/-
  What the kernel body computes for one block of 1024 batch rows, read at an index `(p, q)` of the block.

  The body squares its rows, multiplies rows and squared rows by the two prepared `[128, 256]` arrays (a change of
  float format is the identity on the extended reals; a matrix product into the zero accumulator is the plain sum over
  the contracted coordinate), adds twice the second product and the one-row constant term to the first, and applies
  `μ · logistic ((1 − ·) · σ)` with the one-row arrays broadcast over the rows. So whenever the block's rows are
  rows of `x`, the two prepared arrays are the transposes of `w` and `c`, and the three one-row arrays are `β`, `σ`,
  `μ` laid out as rows, the body's value at `(p, q)` is the specification at (that row of `x`, unit `q`).
-/
import proofs.«116645_j4174708211922_1_alg».proof.Proof.Gen.KernelIdeal.Skeleton
import proofs.«116645_j4174708211922_1_alg».proof.Proof.EllipsoidGate
import proofs.«116645_j4174708211922_1_alg».proof.Proof.LibRowOps
import Idealize.ShloMosaic.Lib.ValueLayout

noncomputable section

open scoped BigOperators

namespace Cert.KernelIdeal.BlockBody

open Cert.KernelIdeal Cert.KernelIdeal.Gen Idealize.ShloMosaic Idealize.ShloMosaic.ValueIdx Cert.EllipsoidGate

/-- The body's stored value at `(p, q)`, as plain sums over the contracted coordinate of the loaded blocks. -/
theorem payload_apply (X0 : Vec Ideal S1024x128 .f32) (X1 X2 : Vec Ideal S128x256 .bf16)
    (X3 X4 X5 : Vec Ideal S1x256 .f32) (p : Fin 1024) (q : Fin 256) :
    k0_pay1 (F := Ideal) X0 X1 X2 X3 X4 X5 (ix2 p q)
      = Ideal.logistic ((Ideal.ofBits .f32 0x3F800000#32
          - ((∑ k : Fin 128, X0 (ix2 p k) * X0 (ix2 p k) * X1 (ix2 k q))
              + Ideal.ofBits .f32 0x40000000#32 * (∑ k : Fin 128, X0 (ix2 p k) * X2 (ix2 k q))
              + X3 (ix2 (0 : Fin 1) q))) * X4 (ix2 (0 : Fin 1) q)) * X5 (ix2 (0 : Fin 1) q) := by
  unfold k0_pay1
  simp only [mulf_apply, addf_apply, subf_apply, broadcast_apply, shapeCast_self, logistic, matmul]
  rw [RowOps.matmul_zero_plain_apply dot_S1024x128_S128x256_S1024x256_1_0_0_1_n_n ⟨_, rfl⟩,
    RowOps.matmul_zero_plain_apply dot_S1024x128_S128x256_S1024x256_1_0_0_1_n_n ⟨_, rfl⟩,
    broadcastTo_1b_ab_apply, broadcastTo_1b_ab_apply, broadcastTo_1b_ab_apply]
  simp only [truncf_apply, mulf_apply]
  rfl

end Cert.KernelIdeal.BlockBody

end
-- ==== Proof.PreparedArrays.lean ====
/-
  The arrays the kernel's host code prepares before the region, as the region finds them.

  From the inputs the host forms `w` = 1 / semi_axis² and `c` = shift · w (shift reshaped to `[256, 128]`), hands the
  region their transposes (the change of float format is the identity on the extended reals), and hands it the row
  sums `β` of shift² · w and the two per-unit vectors laid out as `[1, 256]` rows. Read at an index: the transposes
  at `(k, u)` are `w` and `c` at `(u, k)`, and each row at `(0, u)` is its vector at `u`.
-/
import proofs.«116645_j4174708211922_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Prepared

open Cert.KernelIdeal Cert.KernelIdeal.Gen Idealize.ShloMosaic Idealize.ShloMosaic.TcCoe Idealize.SL.Sem
open Idealize.ShloMosaic.StableHlo Idealize.ShloMosaic.ValueIdx

/-- `w`: the inverse squared semi-axes, `1 / a²` entry by entry. -/
def invSq (a2 : FVec Ideal S256x128 .f32) : FVec Ideal S256x128 .f32 :=
  Host.divf (broadcastInDim S256x128 ![] bcast_S_S256x128 (constant (F := Ideal) S_ .f32 0x3F800000#32)) (mulf a2 a2)

/-- `c`: the shifts, reshaped to one row per unit, times `w`. -/
def scaledShift (a1 : FVec Ideal S32768 .f32) (a2 : FVec Ideal S256x128 .f32) : FVec Ideal S256x128 .f32 :=
  mulf (shapeCast S256x128 a1 shapeCasts_S32768_S256x128) (invSq a2)

/-- `β`: per unit, the sum over the features of shift² · w. -/
def constTerm (a1 : FVec Ideal S32768 .f32) (a2 : FVec Ideal S256x128 .f32) : FVec Ideal S256 .f32 :=
  Host.reduceAdd (mulf (mulf (shapeCast S256x128 a1 shapeCasts_S32768_S256x128) (shapeCast S256x128 a1 shapeCasts_S32768_S256x128)) (invSq a2))
    (constant (F := Ideal) S_ .f32 0x00000000#32) reducesTo_S256x128_S256_d1 h_S_

variable (m : (ℓ : Loc nD τ sig) → Buf (Elt Ideal) ℓ)

/-- Window 1's array: the transpose of `w`. -/
theorem found_v9 (c : Dev nD) :
    (V m c main_v9 : S128x256.Idx → EReal)
      = truncf .bf16 (transpose S128x256 [1, 0] (invSq (m ((c : Thread nD τ).loc main_arg2))) transposes_S256x128_S128x256_1_0) bitsLt_bf16_f32 := by
  dsimp only [Gen.V, Gen.hostOps0]; after_results; rfl

/-- Window 2's array: the transpose of `c`. -/
theorem found_v11 (c : Dev nD) :
    (V m c main_v11 : S128x256.Idx → EReal)
      = truncf .bf16 (transpose S128x256 [1, 0] (scaledShift (m ((c : Thread nD τ).loc main_arg1)) (m ((c : Thread nD τ).loc main_arg2))) transposes_S256x128_S128x256_1_0) bitsLt_bf16_f32 := by
  dsimp only [Gen.V, Gen.hostOps0]; after_results; rfl

/-- Window 3's array: `β` as one row. -/
theorem found_v12 (c : Dev nD) :
    (V m c main_v12 : S1x256.Idx → EReal)
      = shapeCast S1x256 (constTerm (m ((c : Thread nD τ).loc main_arg1)) (m ((c : Thread nD τ).loc main_arg2))) shapeCasts_S256_S1x256 := by
  dsimp only [Gen.V, Gen.hostOps0]; after_results; rfl

/-- Window 4's array: the sharpness vector as one row. -/
theorem found_v13 (c : Dev nD) :
    (V m c main_v13 : S1x256.Idx → EReal) = shapeCast S1x256 (m ((c : Thread nD τ).loc main_arg3)) shapeCasts_S256_S1x256 := by
  dsimp only [Gen.V, Gen.hostOps0]; after_results; rfl

/-- Window 5's array: the multiplier vector as one row. -/
theorem found_v14 (c : Dev nD) :
    (V m c main_v14 : S1x256.Idx → EReal) = shapeCast S1x256 (m ((c : Thread nD τ).loc main_arg4)) shapeCasts_S256_S1x256 := by
  dsimp only [Gen.V, Gen.hostOps0]; after_results; rfl

/-- The transpose of `w` at `(k, u)` is `w` at `(u, k)`. -/
theorem found_v9_apply (c : Dev nD) (k : Fin 128) (u : Fin 256) :
    (V m c main_v9 : S128x256.Idx → EReal) (ix2 k u) = invSq (m ((c : Thread nD τ).loc main_arg2)) (ix2 u k) := by
  rw [found_v9, truncf_apply]
  exact transpose_ix2_apply _ transposes_S256x128_S128x256_1_0 k u

/-- The transpose of `c` at `(k, u)` is `c` at `(u, k)`. -/
theorem found_v11_apply (c : Dev nD) (k : Fin 128) (u : Fin 256) :
    (V m c main_v11 : S128x256.Idx → EReal) (ix2 k u)
      = scaledShift (m ((c : Thread nD τ).loc main_arg1)) (m ((c : Thread nD τ).loc main_arg2)) (ix2 u k) := by
  rw [found_v11, truncf_apply]
  exact transpose_ix2_apply _ transposes_S256x128_S128x256_1_0 k u

/-- The row of `β` at `(0, u)` is `β u`. -/
theorem found_v12_apply (c : Dev nD) (u : Fin 256) :
    (V m c main_v12 : S1x256.Idx → EReal) (ix2 (0 : Fin 1) u)
      = constTerm (m ((c : Thread nD τ).loc main_arg1)) (m ((c : Thread nD τ).loc main_arg2)) (ix1 u) := by
  rw [found_v12]
  exact shapeCast_a_1a_apply _ shapeCasts_S256_S1x256 0 u

/-- The sharpness row at `(0, u)` is the sharpness of unit `u`. -/
theorem found_v13_apply (c : Dev nD) (u : Fin 256) :
    (V m c main_v13 : S1x256.Idx → EReal) (ix2 (0 : Fin 1) u) = m ((c : Thread nD τ).loc main_arg3) (ix1 u) := by
  rw [found_v13]
  exact shapeCast_a_1a_apply _ shapeCasts_S256_S1x256 0 u

/-- The multiplier row at `(0, u)` is the multiplier of unit `u`. -/
theorem found_v14_apply (c : Dev nD) (u : Fin 256) :
    (V m c main_v14 : S1x256.Idx → EReal) (ix2 (0 : Fin 1) u) = m ((c : Thread nD τ).loc main_arg4) (ix1 u) := by
  rw [found_v14]
  exact shapeCast_a_1a_apply _ shapeCasts_S256_S1x256 0 u

end Cert.KernelIdeal.Prepared

end
-- ==== Proof.GateArray.lean ====
/-
  From blocks to the whole array: after the run the kernel's result array holds the specification of the inputs.

  Grid point `t` (of 8) stages rows `1024·t … 1024·t + 1023` of the batch array and the whole of the five prepared
  arrays, and writes back rows `1024·t … 1024·t + 1023` of the result. So row `p` of block `t` is row `1024·t + p`
  of the arrays on both sides, the body's value there is the specification at that row (the block body's value), and
  since every row `r` lies in block `r / 1024` the blocks cover the result array.
-/
import proofs.«116645_j4174708211922_1_alg».proof.Proof.Gen.KernelIdeal.Value
import proofs.«116645_j4174708211922_1_alg».proof.Proof.BlockBody
import proofs.«116645_j4174708211922_1_alg».proof.Proof.PreparedArrays

noncomputable section

open scoped BigOperators

namespace Cert.KernelIdeal.GateArray

open Cert.KernelIdeal Cert.KernelIdeal.Gen Idealize.ShloMosaic Idealize.ShloMosaic.TcCoe Idealize.SL.Sem
open Idealize.ShloMosaic.Pipeline (Dat)
open Idealize.ShloMosaic.ValueIdx Cert.EllipsoidGate Cert.KernelIdeal.Prepared Cert.KernelIdeal.BlockBody

variable (m : (ℓ : Loc nD τ sig) → Buf (Elt Ideal) ℓ) (ρ : Dev nD → PrngReg)

/-- The kernel's result as one function of its inputs: the specification of the batch array, the three arrays the
    host prepares, and the two per-unit vectors. -/
def result (c : Dev nD) : S8192x256.Idx → EReal :=
  gate (m ((c : Thread nD τ).loc main_arg0)) (invSq (m ((c : Thread nD τ).loc main_arg2)))
    (scaledShift (m ((c : Thread nD τ).loc main_arg1)) (m ((c : Thread nD τ).loc main_arg2)))
    (constTerm (m ((c : Thread nD τ).loc main_arg1)) (m ((c : Thread nD τ).loc main_arg2)))
    (m ((c : Thread nD τ).loc main_arg3)) (m ((c : Thread nD τ).loc main_arg4))

theorem zero_offsets : (![0, 0] : Fin 2 → Nat) = fun _ => 0 := funext fun a => by fin_cases a <;> rfl

/-- The block index maps, decided over the 8 grid points: the batch window and the result window sit at block row `t`,
    the five prepared arrays at their one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is block `t` of the specification. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero zero_offsets]
  simp only [View.ld_unit_zero (S := S1024x128) zero_offsets, View.ld_unit_zero (S := S128x256) zero_offsets,
    View.ld_unit_zero (S := S1x256) zero_offsets]
  obtain ⟨e00, e01, e10, e11, e20, e21, e30, e31, e40, e41, e50, e51, e60, e61⟩ := block_indices t
  have ht : t.val < 8 := N_0 ▸ t.isLt
  funext j
  obtain ⟨p, q, rfl⟩ : ∃ (p : Fin 1024) (q : Fin 256), j = ix2 p q := ⟨j 0, j 1, eq_ix2 j⟩
  have hp := p.isLt
  have hq := q.isLt
  show k0_pay1 (iblk m c 0 t) (iblk m c 1 t) (iblk m c 2 t) (iblk m c 3 t) (iblk m c 4 t) (iblk m c 5 t) (ix2 p q)
    = result m c (((cfg0.win 6).blk t).view.emb (ix2 p q))
  -- row `p` of block `t` is row `1024·t + p` of the result array
  have hrow : ((cfg0.win 6).blk t).view.emb (ix2 p q) = ix2 (⟨t.val * 1024 + p.val, by omega⟩ : Fin 8192) q := by
    funext a; apply Fin.ext
    match a with
    | ⟨0, _⟩ => show win0_6.index t (0 : Fin 2) * 1024 + 1 * p.val = t.val * 1024 + p.val; omega
    | ⟨1, _⟩ => show win0_6.index t (1 : Fin 2) * 256 + 1 * q.val = q.val; omega
  -- … and of the batch array
  have h0 : ∀ k : Fin 128, iblk m c 0 t (ix2 p k)
      = m ((c : Thread nD τ).loc main_arg0) (ix2 (⟨t.val * 1024 + p.val, by omega⟩ : Fin 8192) k) := fun k => by
    show V m c main_arg0 (((cfg0.win 0).blk t).view.emb (ix2 p k)) = _
    rw [V_main_arg0]
    refine congrArg _ (funext fun a => Fin.ext ?_)
    match a with
    | ⟨0, _⟩ => show win0_0.index t (0 : Fin 2) * 1024 + 1 * p.val = t.val * 1024 + p.val; omega
    | ⟨1, _⟩ => show win0_0.index t (1 : Fin 2) * 128 + 1 * k.val = k.val; omega
  -- the prepared arrays are staged whole
  have h1 : ∀ k : Fin 128, iblk m c 1 t (ix2 k q) = invSq (m ((c : Thread nD τ).loc main_arg2)) (ix2 q k) := fun k => by
    show (V m c main_v9 : S128x256.Idx → EReal) (((cfg0.win 1).blk t).view.emb (ix2 k q)) = _
    have e : ((cfg0.win 1).blk t).view.emb (ix2 k q) = ix2 k q := funext fun a => Fin.ext (by
      match a with
      | ⟨0, _⟩ => show win0_1.index t (0 : Fin 2) * 128 + 1 * k.val = k.val; omega
      | ⟨1, _⟩ => show win0_1.index t (1 : Fin 2) * 256 + 1 * q.val = q.val; omega)
    rw [e]; exact found_v9_apply m c k q
  have h2 : ∀ k : Fin 128, iblk m c 2 t (ix2 k q)
      = scaledShift (m ((c : Thread nD τ).loc main_arg1)) (m ((c : Thread nD τ).loc main_arg2)) (ix2 q k) := fun k => by
    show (V m c main_v11 : S128x256.Idx → EReal) (((cfg0.win 2).blk t).view.emb (ix2 k q)) = _
    have e : ((cfg0.win 2).blk t).view.emb (ix2 k q) = ix2 k q := funext fun a => Fin.ext (by
      match a with
      | ⟨0, _⟩ => show win0_2.index t (0 : Fin 2) * 128 + 1 * k.val = k.val; omega
      | ⟨1, _⟩ => show win0_2.index t (1 : Fin 2) * 256 + 1 * q.val = q.val; omega)
    rw [e]; exact found_v11_apply m c k q
  have h3 : iblk m c 3 t (ix2 (0 : Fin 1) q)
      = constTerm (m ((c : Thread nD τ).loc main_arg1)) (m ((c : Thread nD τ).loc main_arg2)) (ix1 q) := by
    show (V m c main_v12 : S1x256.Idx → EReal) (((cfg0.win 3).blk t).view.emb (ix2 (0 : Fin 1) q)) = _
    have e : ((cfg0.win 3).blk t).view.emb (ix2 (0 : Fin 1) q) = ix2 (0 : Fin 1) q := funext fun a => Fin.ext (by
      match a with
      | ⟨0, _⟩ => show win0_3.index t (0 : Fin 2) * 1 + 1 * 0 = 0; omega
      | ⟨1, _⟩ => show win0_3.index t (1 : Fin 2) * 256 + 1 * q.val = q.val; omega)
    rw [e]; exact found_v12_apply m c q
  have h4 : iblk m c 4 t (ix2 (0 : Fin 1) q) = m ((c : Thread nD τ).loc main_arg3) (ix1 q) := by
    show (V m c main_v13 : S1x256.Idx → EReal) (((cfg0.win 4).blk t).view.emb (ix2 (0 : Fin 1) q)) = _
    have e : ((cfg0.win 4).blk t).view.emb (ix2 (0 : Fin 1) q) = ix2 (0 : Fin 1) q := funext fun a => Fin.ext (by
      match a with
      | ⟨0, _⟩ => show win0_4.index t (0 : Fin 2) * 1 + 1 * 0 = 0; omega
      | ⟨1, _⟩ => show win0_4.index t (1 : Fin 2) * 256 + 1 * q.val = q.val; omega)
    rw [e]; exact found_v13_apply m c q
  have h5 : iblk m c 5 t (ix2 (0 : Fin 1) q) = m ((c : Thread nD τ).loc main_arg4) (ix1 q) := by
    show (V m c main_v14 : S1x256.Idx → EReal) (((cfg0.win 5).blk t).view.emb (ix2 (0 : Fin 1) q)) = _
    have e : ((cfg0.win 5).blk t).view.emb (ix2 (0 : Fin 1) q) = ix2 (0 : Fin 1) q := funext fun a => Fin.ext (by
      match a with
      | ⟨0, _⟩ => show win0_5.index t (0 : Fin 2) * 1 + 1 * 0 = 0; omega
      | ⟨1, _⟩ => show win0_5.index t (1 : Fin 2) * 256 + 1 * q.val = q.val; omega)
    rw [e]; exact found_v14_apply m c q
  rw [hrow, payload_apply]
  unfold result
  rw [gate_apply]
  unfold quad
  simp only [h0, h1, h2]
  rw [h3, h4, h5]

/-- An index of the result array is in point `t`'s block iff each coordinate is in the block's range on its axis. -/
theorem mem_block (t : Fin cfg0.N) (i : S8192x256.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v15).slice (win0_6.rect t)).set ↔ _
  rw [View.set_slice_whole, Rect.mem_set_unit]
  exact Iff.rfl

/-- Every index of the result array lies in some point's block: row `r` in block `r / 1024`. -/
theorem covered (i : S8192x256.Idx) :
    ∃ t : Fin cfg0.N, (cfg0.win 6).flush t = true ∧ i ∈ ((cfg0.win 6).blk t).view.set := by
  have hi0 : (i 0).val < 8192 := (i 0).isLt
  have hi1 : (i 1).val < 256 := (i 1).isLt
  have hN : cfg0.N = 8 := N_0
  have hlt : (i 0).val / 1024 < cfg0.N := by rw [hN]; omega
  obtain ⟨_, _, _, _, _, _, _, _, _, _, _, _, e60, e61⟩ := block_indices ⟨(i 0).val / 1024, hlt⟩
  refine ⟨⟨(i 0).val / 1024, hlt⟩, flush0_6 _, ?_⟩
  rw [mem_block]
  intro a
  match a with
  | ⟨0, _⟩ =>
    show win0_6.index ⟨(i 0).val / 1024, hlt⟩ (0 : Fin 2) * 1024 ≤ (i 0).val
      ∧ (i 0).val < win0_6.index ⟨(i 0).val / 1024, hlt⟩ (0 : Fin 2) * 1024 + 1024
    have e : win0_6.index ⟨(i 0).val / 1024, hlt⟩ (0 : Fin 2) = (i 0).val / 1024 := e60
    omega
  | ⟨1, _⟩ =>
    show win0_6.index ⟨(i 0).val / 1024, hlt⟩ (1 : Fin 2) * 256 ≤ (i 1).val
      ∧ (i 1).val < win0_6.index ⟨(i 0).val / 1024, hlt⟩ (1 : Fin 2) * 256 + 256
    omega

/-- The result array after the run is the specification of the inputs. -/
theorem final (c : Dev nD) : (dats m 0 c).arrAt 6 cfg0.N = result m c :=
  (dats m 0 c).arrAt_eq_of_cover 6 (result m c) (fun t _ => flushed_eq m c t) covered

/-- The kernel's run: every weakly fair execution ends with the result array at the specification of the inputs and the
    inputs unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.GateArray

end
-- ==== Proof.ReferenceReads.lean ====
/-
  The reference's result, read one operation at a time, is the specification.

  The reference forms the same three small arrays (`w` = 1 / semi_axis², `c` = shift · w, `β` = the row sums of
  shift² · w) and contracts the batch rows and their squares against `c` and `w` along the shared coordinate; its
  logistic function is spelled as the quotient `1 / (1 + e^(−z))`. Index by index this is the specification with the
  three arrays left unopened.
-/
import proofs.«116645_j4174708211922_1_alg».proof.Proof.Gen.ReferenceIdeal.Read
import proofs.«116645_j4174708211922_1_alg».proof.Proof.EllipsoidGate

noncomputable section

open scoped BigOperators

namespace Cert.ReferenceIdeal.GateReads

open Cert.ReferenceIdeal Cert.ReferenceIdeal.Gen Cert.ReferenceIdeal.Read Idealize.ShloMosaic Idealize.ShloMosaic.ValueIdx
open Cert.EllipsoidGate

/-- The contraction reads the batch array along row `i 0`. -/
theorem lidx5_eq (i : S8192x256.Idx) (k : Fin 128) : lidx_main_v5 i k = ix2 (i 0) k :=
  funext fun a => Fin.ext (by match a with | ⟨0, _⟩ => rfl | ⟨1, _⟩ => rfl)
/-- … and the per-unit array along row `i 1`. -/
theorem ridx5_eq (i : S8192x256.Idx) (k : Fin 128) : ridx_main_v5 i k = ix2 (i 1) k :=
  funext fun a => Fin.ext (by match a with | ⟨0, _⟩ => rfl | ⟨1, _⟩ => rfl)
theorem lidx7_eq (i : S8192x256.Idx) (k : Fin 128) : lidx_main_v7 i k = ix2 (i 0) k :=
  funext fun a => Fin.ext (by match a with | ⟨0, _⟩ => rfl | ⟨1, _⟩ => rfl)
theorem ridx7_eq (i : S8192x256.Idx) (k : Fin 128) : ridx_main_v7 i k = ix2 (i 1) k :=
  funext fun a => Fin.ext (by match a with | ⟨0, _⟩ => rfl | ⟨1, _⟩ => rfl)
/-- A per-unit vector broadcast to a row and then over the batch is read at the unit `i 1`. -/
theorem unit15_eq (i : S8192x256.Idx) : idx_main_v14 (idx_main_v15 i) = ix1 (i 1) :=
  funext fun a => Fin.ext (by match a with | ⟨0, _⟩ => rfl)
theorem unit20_eq (i : S8192x256.Idx) : idx_main_v19 (idx_main_v20 i) = ix1 (i 1) :=
  funext fun a => Fin.ext (by match a with | ⟨0, _⟩ => rfl)
theorem unit29_eq (i : S8192x256.Idx) : idx_main_v28 (idx_main_v29 i) = ix1 (i 1) :=
  funext fun a => Fin.ext (by match a with | ⟨0, _⟩ => rfl)

/-- The reference's result is the specification of the batch array, the three prepared arrays as the reference forms
    them, and the two per-unit vectors. -/
theorem result_eq_gate (x0 : (⟨S8192x128, .f32⟩ : BufTy).Contents (Elt Ideal)) (x1 : (⟨S32768, .f32⟩ : BufTy).Contents (Elt Ideal))
    (x2 : (⟨S256x128, .f32⟩ : BufTy).Contents (Elt Ideal)) (x3 x4 : (⟨S256, .f32⟩ : BufTy).Contents (Elt Ideal)) :
    val_main_v30 (F := Ideal) x0 x1 x2 x3 x4
      = gate x0 (val_main_v3 (F := Ideal) x2) (val_main_v6 (F := Ideal) x1 x2) (val_main_v13 (F := Ideal) x1 x2) x3 x4 := by
  funext i
  rw [val_main_v30_apply, val_main_v29_apply, val_main_v28_apply, val_main_v27_apply, val_main_v26_apply,
    val_main_cst_4_apply, val_main_v25_apply, val_main_v24_apply, val_main_cst_3_apply, val_main_v23_apply,
    val_main_v22_apply, val_main_v21_apply, val_main_v20_apply, val_main_v19_apply, val_main_v18_apply,
    val_main_v17_apply, val_main_cst_2_apply, val_main_v16_apply, val_main_v15_apply, val_main_v14_apply,
    val_main_v10_apply, val_main_v9_apply, val_main_v8_apply, val_main_cst_0_apply, val_main_v7_apply,
    val_main_v5_apply]
  simp only [val_main_v4_apply, lidx5_eq, ridx5_eq, lidx7_eq, ridx7_eq, unit15_eq, unit20_eq, unit29_eq,
    Ideal.mulf_def, Ideal.addf_def, Ideal.subf_def, Ideal.hostDivf_def, Ideal.hostUnary_exp_def, Ideal.hostNegf_def,
    Ideal.negf_def, Ideal.ofBits_def, logistic_spelled]
  rfl

end Cert.ReferenceIdeal.GateReads

end
-- ==== Proof.lean ====
/-
  The claim: the kernel runs, its idealization runs, the reference runs, and the idealized kernel and the idealized
  reference end with the same result array on the extended reals.

  Both programs compute, at batch row `b` and unit `u`,

      μ u · logistic ((1 − (Σ_k x(b,k)² · w(u,k) + 2 · Σ_k x(b,k) · c(u,k) + β u)) · σ u)

  with `w` = 1 / semi_axis², `c` = shift · w and `β u` = Σ_k shift(u,k)² · w(u,k), all three formed by the same host
  operations in both. The kernel contracts the batch rows against the transposes of `w` and `c` block by block of 1024
  rows; the reference contracts against `w` and `c` along their second axis: the same sums, term for term, so no law
  of the extended reals beyond reading the operations is needed and the inputs' finiteness is never used. The kernel
  writes the logistic function as one operation, the reference as `1 / (1 + e^(−z))`: one function on the extended
  reals. The idealization rewrote nothing, so the kernel's relation to it is trivial.
-/
import proofs.«116645_j4174708211922_1_alg».proof.Defs
import proofs.«116645_j4174708211922_1_alg».proof.Proof.Gen.Kernel
import proofs.«116645_j4174708211922_1_alg».proof.Proof.Gen.Kernel.Skeleton
import proofs.«116645_j4174708211922_1_alg».proof.Proof.Gen.Kernel.Launch
import proofs.«116645_j4174708211922_1_alg».proof.Proof.Gen.Kernel.Points
import proofs.«116645_j4174708211922_1_alg».proof.Proof.Gen.Kernel.Frame
import proofs.«116645_j4174708211922_1_alg».proof.Proof.Gen.KernelIdeal
import proofs.«116645_j4174708211922_1_alg».proof.Proof.Gen.KernelIdeal.Skeleton
import proofs.«116645_j4174708211922_1_alg».proof.Proof.Gen.KernelIdeal.Launch
import proofs.«116645_j4174708211922_1_alg».proof.Proof.Gen.KernelIdeal.Points
import proofs.«116645_j4174708211922_1_alg».proof.Proof.Gen.KernelIdeal.Frame
import proofs.«116645_j4174708211922_1_alg».proof.Proof.Gen.ReferenceIdeal
import proofs.«116645_j4174708211922_1_alg».proof.Proof.Gen.Pre_finite_inputs
import proofs.«116645_j4174708211922_1_alg».proof.Proof.Gen.KernelIdeal.Value
import proofs.«116645_j4174708211922_1_alg».proof.Proof.Gen.ReferenceIdeal.Run
import proofs.«116645_j4174708211922_1_alg».proof.Proof.Gen.ReferenceIdeal.Read
import proofs.«116645_j4174708211922_1_alg».proof.Proof.GateArray
import proofs.«116645_j4174708211922_1_alg».proof.Proof.ReferenceReads
import Idealize.ShloMosaic.Adequacy
import Idealize.ShloMosaic.Init

noncomputable section

namespace Cert.Proof

open Idealize.ShloMosaic Idealize.SL.Sem

/-- The three arrays the two programs prepare are the same functions of the inputs: the same operations on both sides. -/
theorem prepared_eq (a1 : FVec Ideal Cert.KernelIdeal.S32768 .f32) (a2 : FVec Ideal Cert.KernelIdeal.S256x128 .f32) :
    Cert.ReferenceIdeal.Read.val_main_v3 (F := Ideal) a2 = Cert.KernelIdeal.Prepared.invSq a2
    ∧ Cert.ReferenceIdeal.Read.val_main_v6 (F := Ideal) a1 a2 = Cert.KernelIdeal.Prepared.scaledShift a1 a2
    ∧ Cert.ReferenceIdeal.Read.val_main_v13 (F := Ideal) a1 a2 = Cert.KernelIdeal.Prepared.constTerm a1 a2 :=
  ⟨rfl, rfl, rfl⟩

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at the specification of inputs that agree. -/
theorem algebraic : Cert.algebraic_KernelIdeal_ReferenceIdeal := by
  intro m ρ m' ρ' _ hagree
  refine ⟨fun c => Cert.KernelIdeal.GateArray.result m c, Cert.KernelIdeal.GateArray.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.Read.val_main_v30_eq, Cert.ReferenceIdeal.GateReads.result_eq_gate, h0, h1, h2, h3, h4]
  obtain ⟨e1, e2, e3⟩ := prepared_eq (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
  rw [e1, e2, e3]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
